-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S256 : Shape := ⟨1, ![256]⟩
abbrev S2048 : Shape := ⟨1, ![2048]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S256 : S_.BroadcastsInDim S256 (![] : Fin 0 → Fin S256.rank)
  reducesTo_S256_S_d0 : S256.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048 .f32) (main_arg5 : FVec F S2048 .f32) (main_arg6 : FVec F S2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S512 .f32) (main_arg1 : FVec F S256 .f32) (main_arg2 : FVec F S2048 .f32) (main_arg3 : FVec F S2048 .f32) (main_arg4 : FVec F S2048 .f32) (main_arg5 : FVec F S2048 .f32) (main_arg6 : FVec F S2048 .f32) (main_arg7 : FVec F S2048 .f32) : IVec S_ 1 :=
  let main_v0 : FVec F S512 .f32 := Host.absf main_arg0
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S512 : Shape := ⟨1, ![512]⟩
abbrev S256 : Shape := ⟨1, ![256]⟩
abbrev S2048 : Shape := ⟨1, ![2048]⟩
abbrev S512x1x1 : Shape := ⟨3, ![512, 1, 1]⟩
abbrev S1x256x1 : Shape := ⟨3, ![1, 256, 1]⟩
abbrev S1x1x2048 : Shape := ⟨3, ![1, 1, 2048]⟩
abbrev S512x256 : Shape := ⟨2, ![512, 256]⟩
abbrev S32x1x1 : Shape := ⟨3, ![32, 1, 1]⟩
abbrev S1x128x1 : Shape := ⟨3, ![1, 128, 1]⟩
abbrev S1x1x128 : Shape := ⟨3, ![1, 1, 128]⟩
abbrev S32x128 : Shape := ⟨2, ![32, 128]⟩
abbrev S32x1x128 : Shape := ⟨3, ![32, 1, 128]⟩
abbrev S1x128x128 : Shape := ⟨3, ![1, 128, 128]⟩
abbrev S32x128x128 : Shape := ⟨3, ![32, 128, 128]⟩

abbrev nBuf : Space → Nat
  | .hbm => 20
  | .vmem => 19
  | .smem => 0
  | _ => 0

abbrev bufTy : (tb : Table) → Fin (tcTables nBuf tb) → BufTy
  | .hbm, ⟨0, _⟩ => ⟨S512, .f32⟩
  | .hbm, ⟨1, _⟩ => ⟨S256, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S512x1x1, .f32⟩
  | .hbm, ⟨9, _⟩ => ⟨S1x256x1, .f32⟩
  | .hbm, ⟨10, _⟩ => ⟨S1x1x2048, .f32⟩
  | .hbm, ⟨11, _⟩ => ⟨S1x1x2048, .f32⟩
  | .hbm, ⟨12, _⟩ => ⟨S2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2048, .f32⟩
  | .hbm, ⟨17, _⟩ => ⟨S1x1x2048, .f32⟩
  | .hbm, ⟨18, _⟩ => ⟨S1x1x2048, .f32⟩
  | .hbm, ⟨19, _⟩ => ⟨S512x256, .f32⟩
  | .local _ .vmem, ⟨0, _⟩ => ⟨S32x1x1, .f32⟩
  | .local _ .vmem, ⟨1, _⟩ => ⟨S32x1x1, .f32⟩
  | .local _ .vmem, ⟨2, _⟩ => ⟨S1x128x1, .f32⟩
  | .local _ .vmem, ⟨3, _⟩ => ⟨S1x128x1, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 16], ![false, false, false]⟩

def k0_cond2 (i : grid0.Coords) : BitVec 1 :=
  let arg2 : BitVec 32 := BitVec.ofNat 32 (i 2).val
  let c15_i32 : BitVec 32 := 15#32
  let v60 : BitVec 1 := Scalar.cmpi .eq arg2 c15_i32
  let v61 : BitVec 32 := Scalar.extui v60
  let c0_i32_32 : BitVec 32 := 0#32
  let v62 : BitVec 1 := Scalar.cmpi .ne v61 c0_i32_32
  v62

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S32x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  shapeCasts_S512_S512x1x1 : S512.ShapeCasts S512x1x1
  shapeCasts_S256_S1x256x1 : S256.ShapeCasts S1x256x1
  shapeCasts_S2048_S1x1x2048 : S2048.ShapeCasts S1x1x2048
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1x1_S32x1x1_0_0_0 : ∀ a, (![0, 0, 0] : Fin 3 → Nat) a + S32x1x1.size a ≤ S32x1x1.size a
  h_S32x1x1 : 0 < S32x1x1.numel
  shapeCasts_S32x1x1_S32x1x1 : S32x1x1.ShapeCasts S32x1x1
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S32x1x1_S32x1x128 : S32x1x1.Broadcasts S32x1x128
  broadcasts_S1x1x128_S32x1x128 : S1x1x128.Broadcasts S32x1x128
  broadcasts_S1x128x1_S1x128x128 : S1x128x1.Broadcasts S1x128x128
  broadcasts_S1x1x128_S1x128x128 : S1x1x128.Broadcasts S1x128x128
  broadcasts_S32x1x128_S32x128x128 : S32x1x128.Broadcasts S32x128x128
  broadcasts_S1x128x128_S32x128x128 : S1x128x128.Broadcasts S32x128x128
  broadcasts_S1x1x128_S32x128x128 : S1x1x128.Broadcasts S32x128x128
  reduces_S32x128x128_S32x128 : S32x128x128.Reduces [2] S32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x1.size a ≤ S512x1x1.size a
  hwx0_0 : ∀ i : grid0.Coords, EltTy.bits .f32 = 32 ∨ (Rect.block (s := S512x1x1) S32x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S1x256x1.size a
  hwx0_1 : ∀ i : grid0.Coords, EltTy.bits .f32 = 32 ∨ (Rect.block (s := S1x256x1) S1x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S1x1x2048.size a
  hwx0_2 : ∀ i : grid0.Coords, EltTy.bits .f32 = 32 ∨ (Rect.block (s := S1x1x2048) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S1x1x2048.size a
  hwx0_3 : ∀ i : grid0.Coords, EltTy.bits .f32 = 32 ∨ (Rect.block (s := S1x1x2048) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S1x1x2048.size a
  hwx0_4 : ∀ i : grid0.Coords, EltTy.bits .f32 = 32 ∨ (Rect.block (s := S1x1x2048) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S1x1x2048.size a
  hwx0_5 : ∀ i : grid0.Coords, EltTy.bits .f32 = 32 ∨ (Rect.block (s := S1x1x2048) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S1x1x2048.size a
  hwx0_6 : ∀ i : grid0.Coords, EltTy.bits .f32 = 32 ∨ (Rect.block (s := S1x1x2048) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S1x1x2048.size a
  hwx0_7 : ∀ i : grid0.Coords, EltTy.bits .f32 = 32 ∨ (Rect.block (s := S1x1x2048) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S512x256.size a
  hwx0_8 : ∀ i : grid0.Coords, EltTy.bits .f32 = 32 ∨ (Rect.block (s := S512x256) S32x128.size (cc0_transform_8 i) (hinb0_8 i)).WholeWords (EltTy.packing .f32)

variable [Facts₀]

abbrev win0_0 : Pipeline.Window sig grid0 :=
  Pipeline.Window.ofSpec (Memref.whole main_v0) S32x1x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S32x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S512 : Shape := ⟨1, ![512]⟩
abbrev S256 : Shape := ⟨1, ![256]⟩
abbrev S2048 : Shape := ⟨1, ![2048]⟩
abbrev S512x1x1 : Shape := ⟨3, ![512, 1, 1]⟩
abbrev S1x256x1 : Shape := ⟨3, ![1, 256, 1]⟩
abbrev S1x1x2048 : Shape := ⟨3, ![1, 1, 2048]⟩
abbrev S512x1x2048 : Shape := ⟨3, ![512, 1, 2048]⟩
abbrev S1x256x2048 : Shape := ⟨3, ![1, 256, 2048]⟩
abbrev S_ : Shape := ⟨0, ![]⟩
abbrev S512x256x2048 : Shape := ⟨3, ![512, 256, 2048]⟩
abbrev S512x256 : Shape := ⟨2, ![512, 256]⟩

abbrev nBuf : Space → Nat
  | .hbm => 60
  | .vmem => 0
  | .smem => 0
  | _ => 0

abbrev bufTy : (tb : Table) → Fin (tcTables nBuf tb) → BufTy
  | .hbm, ⟨0, _⟩ => ⟨S512, .f32⟩
  | .hbm, ⟨1, _⟩ => ⟨S256, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S512x1x1, .f32⟩
  | .hbm, ⟨9, _⟩ => ⟨S1x256x1, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S512x1x2048, .f32⟩
  | .hbm, ⟨19, _⟩ => ⟨S512x1x2048, .f32⟩
  | .hbm, ⟨20, _⟩ => ⟨S512x1x2048, .f32⟩
  | .hbm, ⟨21, _⟩ => ⟨S512x1x2048, .f32⟩
  | .hbm, ⟨22, _⟩ => ⟨S512x1x2048, .f32⟩
  | .hbm, ⟨23, _⟩ => ⟨S1x1x2048, .f32⟩
  | .hbm, ⟨24, _⟩ => ⟨S1x256x2048, .f32⟩
  | .hbm, ⟨25, _⟩ => ⟨S1x256x2048, .f32⟩
  | .hbm, ⟨26, _⟩ => ⟨S1x256x2048, .f32⟩
  | .hbm, ⟨27, _⟩ => ⟨S1x256x2048, .f32⟩
  | .hbm, ⟨28, _⟩ => ⟨S1x256x2048, .f32⟩
  | .hbm, ⟨29, _⟩ => ⟨S1x1x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S_, .f32⟩
  | .hbm, ⟨34, _⟩ => ⟨S1x1x2048, .f32⟩
  | .hbm, ⟨35, _⟩ => ⟨S1x1x2048, .f32⟩
  | .hbm, ⟨36, _⟩ => ⟨S512x1x2048, .f32⟩
  | .hbm, ⟨37, _⟩ => ⟨S_, .f32⟩
  | .hbm, ⟨38, _⟩ => ⟨S1x1x2048, .f32⟩
  | .hbm, ⟨39, _⟩ => ⟨S1x1x2048, .f32⟩
  | .hbm, ⟨40, _⟩ => ⟨S512x1x2048, .f32⟩
  | .hbm, ⟨41, _⟩ => ⟨S512x1x2048, .f32⟩
  | .hbm, ⟨42, _⟩ => ⟨S512x256x2048, .f32⟩
  | .hbm, ⟨43, _⟩ => ⟨S512x256x2048, .f32⟩
  | .hbm, ⟨44, _⟩ => ⟨S512x256x2048, .f32⟩
  | .hbm, ⟨45, _⟩ => ⟨S512x256x2048, .f32⟩
  | .hbm, ⟨46, _⟩ => ⟨S512x256x2048, .f32⟩
  | .hbm, ⟨47, _⟩ => ⟨S1x256x2048, .f32⟩
  | .hbm, ⟨48, _⟩ => ⟨S512x256x2048, .f32⟩
  | .hbm, ⟨49, _⟩ => ⟨S512x256x2048, .f32⟩
  | .hbm, ⟨50, _⟩ => ⟨S512x256x2048, .f32⟩
  | .hbm, ⟨51, _⟩ => ⟨S512x256x2048, .f32⟩
  | .hbm, ⟨52, _⟩ => ⟨S_, .f32⟩
  | .hbm, ⟨53, _⟩ => ⟨S512x256x2048, .f32⟩
  | .hbm, ⟨54, _⟩ => ⟨S512x256x2048, .f32⟩
  | .hbm, ⟨55, _⟩ => ⟨S512x256x2048, .f32⟩
  | .hbm, ⟨56, _⟩ => ⟨S512x256x2048, .f32⟩
  | .hbm, ⟨57, _⟩ => ⟨S512x256x2048, .f32⟩
  | .hbm, ⟨58, _⟩ => ⟨S_, .f32⟩
  | .hbm, ⟨59, _⟩ => ⟨S512x256, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩

abbrev nD : Nat := 1
abbrev τ : Topo := Topo.v7x

variable {F : FTy → Type} [FloatOps F]

class Facts₀ : Prop where
  bcast_S512_S512x1x1_0 : S512.BroadcastsInDim S512x1x1 (![0] : Fin 1 → Fin S512x1x1.rank)
  bcast_S256_S1x256x1_1 : S256.BroadcastsInDim S1x256x1 (![1] : Fin 1 → Fin S1x256x1.rank)
  bcast_S2048_S1x1x2048_2 : S2048.BroadcastsInDim S1x1x2048 (![2] : Fin 1 → Fin S1x1x2048.rank)
  bcast_S512x1x1_S512x1x2048_0_1_2 : S512x1x1.BroadcastsInDim S512x1x2048 (![0, 1, 2] : Fin 3 → Fin S512x1x2048.rank)
  bcast_S1x1x2048_S512x1x2048_0_1_2 : S1x1x2048.BroadcastsInDim S512x1x2048 (![0, 1, 2] : Fin 3 → Fin S512x1x2048.rank)
  bcast_S1x256x1_S1x256x2048_0_1_2 : S1x256x1.BroadcastsInDim S1x256x2048 (![0, 1, 2] : Fin 3 → Fin S1x256x2048.rank)
  bcast_S1x1x2048_S1x256x2048_0_1_2 : S1x1x2048.BroadcastsInDim S1x256x2048 (![0, 1, 2] : Fin 3 → Fin S1x256x2048.rank)
  bcast_S_S1x1x2048 : S_.BroadcastsInDim S1x1x2048 (![] : Fin 0 → Fin S1x1x2048.rank)
  bcast_S512x1x2048_S512x256x2048_0_1_2 : S512x1x2048.BroadcastsInDim S512x256x2048 (![0, 1, 2] : Fin 3 → Fin S512x256x2048.rank)
  bcast_S1x256x2048_S512x256x2048_0_1_2 : S1x256x2048.BroadcastsInDim S512x256x2048 (![0, 1, 2] : Fin 3 → Fin S512x256x2048.rank)
  bcast_S1x1x2048_S512x256x2048_0_1_2 : S1x1x2048.BroadcastsInDim S512x256x2048 (![0, 1, 2] : Fin 3 → Fin S512x256x2048.rank)
  bcast_S_S512x256x2048 : S_.BroadcastsInDim S512x256x2048 (![] : Fin 0 → Fin S512x256x2048.rank)
  reducesTo_S512x256x2048_S512x256_d2 : S512x256x2048.ReducesTo [2] S512x256
  h_S_ : 0 < S_.numel

variable [Facts₀]

class Facts : Prop extends Facts₀ where

variable [Facts]
-- ==== Proof.GaussSum.lean ====
/-
  The summand of the Gaussian mixture, and the regrouping of its sum.

  Both programs compute, for a time sample `t`, a frequency sample `f` and the 2048 components `n`,
      out(t, f) = 0 + ∑ₙ αₙ · exp(-½ · z(t, f, n)),
      z = (dt² - 2ρ·dt·df + df²) / (1 - ρ² + ε),   dt = (t - μt) / σt,   df = (f - μf) / σf,
  with σt = exp(log σt), σf = exp(log σf), ρ = tanh(raw ρ). The two differ only in how the sum over `n` is
  grouped: one sum of 2048 terms against sixteen partial sums of 128 consecutive terms added up in order. On the
  extended reals addition is commutative and associative without any side condition, so the two groupings agree
  for every input, finite or not (`sum_tiles`).
-/
import Idealize.ShloMosaic.PureOps.Ideal
import Idealize.ShloMosaic.PureOps.Ideal.Laws
import Idealize.ShloMosaic.Lib.ValueIdx

noncomputable section

namespace Cert.GaussMix

open Idealize.ShloMosaic Idealize.ShloMosaic.ValueIdx

/-- A standardized deviation `(x - μ) / σ`. -/
def dev (x mu s : EReal) : EReal := Ideal.div (x - mu) s

/-- The quadratic form `(dt² - 2ρ·dt·df + df²) / (1 - ρ² + ε)`, in the order both programs evaluate it;
    the literals are the f32 words of 2, 1 and 1e-6. -/
def quad (dt df rho : EReal) : EReal :=
  Ideal.div ((dt * dt - Ideal.ofBits .f32 0x40000000#32 * rho * dt * df) + df * df)
    ((Ideal.ofBits .f32 0x3F800000#32 - rho * rho) + Ideal.ofBits .f32 0x358637BD#32)

/-- One component's weighted density over its scales and correlation as the kernel body receives them:
    `α · exp(-½ · z)`; the literal is the f32 word of -1/2. -/
def core (t f mt mf st sf rho al : EReal) : EReal :=
  al * Ideal.exp (Ideal.ofBits .f32 0xBF000000#32 * quad (dev t mt st) (dev f mf sf) rho)

/-- The same over the raw parameters: the scales are exponentials of their logarithms, the correlation a
    hyperbolic tangent. -/
def term (t f mt mf lst lsf rr al : EReal) : EReal :=
  core t f mt mf (Ideal.exp lst) (Ideal.exp lsf) (Ideal.tanh rr) al

/-- The mixture evaluated on the whole grid, as one function of the eight argument arrays: entry `(t, f)` is
    the zero the sum starts from plus the 2048 components' terms at sample `t` of the first array and sample `f`
    of the second. -/
def mix (tg : (⟨1, ![512]⟩ : Shape).Idx → EReal) (fg : (⟨1, ![256]⟩ : Shape).Idx → EReal)
    (mt mf lst lsf rr al : (⟨1, ![2048]⟩ : Shape).Idx → EReal) : (⟨2, ![512, 256]⟩ : Shape).Idx → EReal :=
  fun i => Ideal.ofBits .f32 0x00000000#32 + ∑ n : Fin 2048,
    term (tg (ix1 (i 0 : Fin 512))) (fg (ix1 (i 1 : Fin 256))) (mt (ix1 n)) (mf (ix1 n)) (lst (ix1 n)) (lsf (ix1 n))
      (rr (ix1 n)) (al (ix1 n))

/-- The mixture's entry depends on its index only through the two coordinates: at an index whose coordinates are
    `I` and `J` it is the zero plus the components' terms at samples `I` and `J`. -/
theorem mix_apply (tg : (⟨1, ![512]⟩ : Shape).Idx → EReal) (fg : (⟨1, ![256]⟩ : Shape).Idx → EReal)
    (mt mf lst lsf rr al : (⟨1, ![2048]⟩ : Shape).Idx → EReal) (i : (⟨2, ![512, 256]⟩ : Shape).Idx)
    (I : Fin 512) (J : Fin 256) (hI : (i 0).val = I.val) (hJ : (i 1).val = J.val) :
    mix tg fg mt mf lst lsf rr al i = Ideal.ofBits .f32 0x00000000#32 + ∑ n : Fin 2048,
      term (tg (ix1 I)) (fg (ix1 J)) (mt (ix1 n)) (mf (ix1 n)) (lst (ix1 n)) (lsf (ix1 n)) (rr (ix1 n)) (al (ix1 n)) := by
  unfold mix
  rw [show (i 0 : Fin 512) = I from Fin.ext hI, show (i 1 : Fin 256) = J from Fin.ext hJ]

/-! ## Tiles

The grid walks 16 time tiles of 32 samples, 2 frequency tiles of 128 samples and 16 component tiles of 128
components, the component tiles fastest: grid position `n` is at time tile `n / 32`, frequency tile `n / 16 mod 2`
and component tile `n mod 16`. The three constructors below name a sample or a component by a grid position and an
offset inside the position's tile; they are total in `n` (the tile number is reduced into its range), so that sums
over runs of positions need no bound on the position. -/

/-- Time sample `a` of the time tile at grid position `n`. -/
def tIdx (n : ℕ) (a : Fin 32) : Fin 512 :=
  ⟨32 * (n / 32 % 16) + a.val, by have := a.isLt; have := Nat.mod_lt (n / 32) (by decide : 0 < 16); omega⟩

/-- Frequency sample `b` of the frequency tile at grid position `n`. -/
def fIdx (n : ℕ) (b : Fin 128) : Fin 256 :=
  ⟨128 * (n / 16 % 2) + b.val, by have := b.isLt; have := Nat.mod_lt (n / 16) (by decide : 0 < 2); omega⟩

/-- Component `k` of the component tile at grid position `n`. -/
def cIdx (n : ℕ) (k : Fin 128) : Fin 2048 :=
  ⟨128 * (n % 16) + k.val, by have := k.isLt; have := Nat.mod_lt n (by decide : 0 < 16); omega⟩

/-- Sixteen consecutive tiles of 128 indices exhaust the 2048 indices: the sum over the positions `16·q + s`,
    `s = 0 … 15`, of the sums over the position's component tile is the sum over all components. Only
    commutativity and associativity of the addition are used. -/
theorem sum_tiles {M : Type*} [AddCommMonoid M] (T : Fin 2048 → M) (q : ℕ) :
    ∑ s ∈ Finset.range 16, ∑ k : Fin 128, T (cIdx (16 * q + s) k) = ∑ n : Fin 2048, T n := by
  rw [Finset.sum_range]
  have e : ∑ n : Fin 2048, T n = ∑ p : Fin 16 × Fin 128, T (finProdFinEquiv p) :=
    (Equiv.sum_comp (finProdFinEquiv (m := 16) (n := 128)) T).symm
  rw [e, Fintype.sum_prod_type]
  refine Finset.sum_congr rfl fun s _ => Finset.sum_congr rfl fun k _ => congrArg T (Fin.ext ?_)
  show 128 * ((16 * q + s.val) % 16) + k.val = k.val + 128 * s.val
  have := s.isLt
  omega

end Cert.GaussMix

end
-- ==== Proof.RefTerm.lean ====
/-
  The reference's result, read index by index.

  The reference evaluates the mixture on the full 512 × 256 × 2048 box: every operand is first broadcast to the
  box (or to one of its faces), the arithmetic is pointwise, and the last operation sums the box along its third
  axis from zero. Read at one box index `(t, f, n)`, each broadcast returns the element of the small array that
  shares the coordinates it keeps, so the box's element there is the component's `term` at samples `t`, `f` and
  parameters `n`; the result at `(t, f)` is then `mix` there.
-/
import proofs.«114677_j31430570672288_1_alg».proof.Proof.GaussSum
import proofs.«114677_j31430570672288_1_alg».proof.Proof.Gen.ReferenceIdeal.Read
import Idealize.ShloMosaic.Lib.ValueIdx

noncomputable section

namespace Cert.GaussMix.Ref

open Cert.ReferenceIdeal Cert.ReferenceIdeal.Read Idealize.ShloMosaic Idealize.ShloMosaic.ValueIdx

/-- Two rank-one indices with the same coordinate are equal. -/
local macro "ax1" : tactic => `(tactic| (funext a; match a with | ⟨0, _⟩ => rfl))
/-- Two rank-three indices with the same three coordinates are equal. -/
local macro "ax3" : tactic => `(tactic| (funext a; match a with | ⟨0, _⟩ => rfl | ⟨1, _⟩ => rfl | ⟨2, _⟩ => rfl))

variable (x0 : (⟨S512, .f32⟩ : BufTy).Contents (Elt Ideal)) (x1 : (⟨S256, .f32⟩ : BufTy).Contents (Elt Ideal))
  (x2 x3 x4 x5 x6 x7 : (⟨S2048, .f32⟩ : BufTy).Contents (Elt Ideal))

/-- The correlation row at component `n`: the hyperbolic tangent of the raw value. -/
theorem rho_at (n : Fin 2048) :
    val_main_v7 (F := Ideal) x6 (ix3 (0 : Fin 1) (0 : Fin 1) n) = Ideal.tanh (x6 (ix1 n)) := by
  rw [val_main_v7_apply, val_main_v6_apply,
    show idx_main_v7 (ix3 (0 : Fin 1) (0 : Fin 1) n) = ix1 n from by ax1]
  rfl

/-- The standardized time deviation at sample `I` and component `n`. -/
theorem dt_at (I : Fin 512) (n : Fin 2048) :
    val_main_v14 (F := Ideal) x0 x2 x4 (ix3 I (0 : Fin 1) n)
      = dev (x0 (ix1 I)) (x2 (ix1 n)) (Ideal.exp (x4 (ix1 n))) := by
  rw [val_main_v14_apply, val_main_v12_apply, val_main_v10_apply, val_main_v0_apply, val_main_v11_apply,
    val_main_v9_apply, val_main_v13_apply, val_main_v3_apply, val_main_v2_apply,
    show idx_main_v10 (ix3 I (0 : Fin 1) n) = ix3 I (0 : Fin 1) (0 : Fin 1) from by ax3,
    show idx_main_v0 (ix3 I (0 : Fin 1) (0 : Fin 1)) = ix1 I from by ax1,
    show idx_main_v11 (ix3 I (0 : Fin 1) n) = ix3 (0 : Fin 1) (0 : Fin 1) n from by ax3,
    show idx_main_v9 (ix3 (0 : Fin 1) (0 : Fin 1) n) = ix1 n from by ax1,
    show idx_main_v13 (ix3 I (0 : Fin 1) n) = ix3 (0 : Fin 1) (0 : Fin 1) n from by ax3,
    show idx_main_v3 (ix3 (0 : Fin 1) (0 : Fin 1) n) = ix1 n from by ax1]
  rfl

/-- The standardized frequency deviation at sample `J` and component `n`. -/
theorem df_at (J : Fin 256) (n : Fin 2048) :
    val_main_v20 (F := Ideal) x1 x3 x5 (ix3 (0 : Fin 1) J n)
      = dev (x1 (ix1 J)) (x3 (ix1 n)) (Ideal.exp (x5 (ix1 n))) := by
  rw [val_main_v20_apply, val_main_v18_apply, val_main_v16_apply, val_main_v1_apply, val_main_v17_apply,
    val_main_v15_apply, val_main_v19_apply, val_main_v5_apply, val_main_v4_apply,
    show idx_main_v16 (ix3 (0 : Fin 1) J n) = ix3 (0 : Fin 1) J (0 : Fin 1) from by ax3,
    show idx_main_v1 (ix3 (0 : Fin 1) J (0 : Fin 1)) = ix1 J from by ax1,
    show idx_main_v17 (ix3 (0 : Fin 1) J n) = ix3 (0 : Fin 1) (0 : Fin 1) n from by ax3,
    show idx_main_v15 (ix3 (0 : Fin 1) (0 : Fin 1) n) = ix1 n from by ax1,
    show idx_main_v19 (ix3 (0 : Fin 1) J n) = ix3 (0 : Fin 1) (0 : Fin 1) n from by ax3,
    show idx_main_v5 (ix3 (0 : Fin 1) (0 : Fin 1) n) = ix1 n from by ax1]
  rfl

/-- The quadratic form's denominator at component `n`: `(1 - ρ²) + ε`. -/
theorem den_at (n : Fin 2048) :
    val_main_v25 (F := Ideal) x6 (ix3 (0 : Fin 1) (0 : Fin 1) n)
      = (Ideal.ofBits .f32 0x3F800000#32 - Ideal.tanh (x6 (ix1 n)) * Ideal.tanh (x6 (ix1 n)))
          + Ideal.ofBits .f32 0x358637BD#32 := by
  rw [val_main_v25_apply, val_main_v23_apply, val_main_v22_apply, val_main_cst_apply, val_main_v21_apply,
    rho_at, val_main_v24_apply, val_main_cst_0_apply]
  rfl

/-- The box's element at `(I, J, n)` is component `n`'s term at samples `I` and `J`. -/
theorem summand_at (I : Fin 512) (J : Fin 256) (n : Fin 2048) :
    val_main_v45 (F := Ideal) x0 x1 x2 x3 x4 x5 x6 x7 (ix3 I J n)
      = term (x0 (ix1 I)) (x1 (ix1 J)) (x2 (ix1 n)) (x3 (ix1 n)) (x4 (ix1 n)) (x5 (ix1 n)) (x6 (ix1 n))
          (x7 (ix1 n)) := by
  rw [val_main_v45_apply, val_main_v44_apply, val_main_v8_apply, val_main_v43_apply, val_main_v42_apply,
    val_main_v41_apply, val_main_cst_2_apply, val_main_v40_apply, val_main_v38_apply, val_main_v35_apply,
    val_main_v34_apply, val_main_v26_apply, val_main_v33_apply, val_main_v31_apply, val_main_v30_apply,
    val_main_v29_apply, val_main_v28_apply, val_main_v27_apply, val_main_cst_1_apply, val_main_v32_apply,
    val_main_v37_apply, val_main_v36_apply, val_main_v39_apply,
    show idx_main_v44 (ix3 I J n) = ix3 (0 : Fin 1) (0 : Fin 1) n from by ax3,
    show idx_main_v8 (ix3 (0 : Fin 1) (0 : Fin 1) n) = ix1 n from by ax1,
    show idx_main_v34 (ix3 I J n) = ix3 I (0 : Fin 1) n from by ax3,
    show idx_main_v31 (ix3 I J n) = ix3 I (0 : Fin 1) n from by ax3,
    show idx_main_v29 (ix3 I (0 : Fin 1) n) = ix3 (0 : Fin 1) (0 : Fin 1) n from by ax3,
    show idx_main_v32 (ix3 I J n) = ix3 (0 : Fin 1) J n from by ax3,
    show idx_main_v37 (ix3 I J n) = ix3 (0 : Fin 1) J n from by ax3,
    show idx_main_v39 (ix3 I J n) = ix3 (0 : Fin 1) (0 : Fin 1) n from by ax3,
    dt_at, df_at, rho_at, den_at]
  rfl

/-- The reference's result is the mixture: at `(I, J)` the sum from zero, over the third axis, of the box. -/
theorem result_eq : val_main_v46 (F := Ideal) x0 x1 x2 x3 x4 x5 x6 x7 = mix x0 x1 x2 x3 x4 x5 x6 x7 := by
  funext i
  obtain ⟨I, J, rfl⟩ : ∃ (I : Fin 512) (J : Fin 256), i = ix2 I J := ⟨i 0, i 1, eq_ix2 i⟩
  rw [val_main_v46_apply]
  refine congrArg₂ (· + ·) rfl (Finset.sum_congr rfl fun n _ => ?_)
  rw [show idx_main_v46 (ix2 I J) n = ix3 I J n from by ax3]
  exact summand_at x0 x1 x2 x3 x4 x5 x6 x7 I J n

end Cert.GaussMix.Ref

end
-- ==== Proof.KernelTerm.lean ====
/-
  What one grid point adds to the accumulator, read at an index.

  At a grid point the body holds a 32-row block of time samples (as a column), a 128-row block of frequency
  samples, and 128 components' parameters (as rows along the last axis). It forms the 32 × 128 × 128 box of
  weighted densities — every operand broadcast to the box along the axes it lacks, the arithmetic pointwise —,
  sums the box along its last axis, and adds the 32 × 128 result to what the accumulator held. Read at entry
  `(a, b)` this is the accumulator's entry plus the sum over the 128 components `k` of the component's density
  `core` at time sample `a` and frequency sample `b` of the blocks.
-/
import proofs.«114677_j31430570672288_1_alg».proof.Proof.GaussSum
import proofs.«114677_j31430570672288_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.GaussMix.Kern

open Cert.KernelIdeal Cert.KernelIdeal.Gen Idealize.ShloMosaic Idealize.ShloMosaic.ValueIdx

/-! ## The step, for any float values -/

section Step
variable {F : FTy → Type} [FloatOps F]

/-- The accumulator after a grid point, from the point's eight input blocks and the accumulator before it: the
    body's one store into the accumulator, over the values its loads read. -/
def step (x0 : Vec F S32x1x1 .f32) (x1 : Vec F S1x128x1 .f32) (x2 x3 x4 x5 x6 x7 : Vec F S1x1x128 .f32)
    (acc : Vec F S32x128 .f32) : Vec F S32x128 .f32 :=
  k0_pay1 (k0_pay3 x6) (k0_pay4 x7) (k0_pay5 x0 x2 x4) (k0_pay6 x1 x3 x5) (k0_pay7 x6) acc

end Step

/-! ## Broadcasts to the box and its faces, read at an index

A broadcast keeps the coordinates on the axes where the operand is as long as the result and reads coordinate
zero on the operand's unit axes. -/

section Layout
variable {α : Type}

/-- A column of 32 time samples spread along the component axis. -/
theorem bc_time (v : S32x1x1.Idx → α) (h : S32x1x1.Broadcasts S32x1x128) (a : Fin 32) (k : Fin 128) :
    broadcastTo S32x1x128 v h (ix3 a (0 : Fin 1) k) = v (ix3 a (0 : Fin 1) (0 : Fin 1)) :=
  broadcastTo_apply v h _ _ fun c => match c with
    | ⟨0, _⟩ => by show a.val = if (32 : Nat) = 1 then 0 else a.val; rw [if_neg (by decide)]
    | ⟨1, _⟩ => by show (0 : Nat) = if (1 : Nat) = 1 then 0 else 0; rw [if_pos rfl]
    | ⟨2, _⟩ => by show (0 : Nat) = if (1 : Nat) = 1 then 0 else k.val; rw [if_pos rfl]

/-- A row of 128 component parameters spread along the time axis. -/
theorem bc_par_time (v : S1x1x128.Idx → α) (h : S1x1x128.Broadcasts S32x1x128) (a : Fin 32) (k : Fin 128) :
    broadcastTo S32x1x128 v h (ix3 a (0 : Fin 1) k) = v (ix3 (0 : Fin 1) (0 : Fin 1) k) :=
  broadcastTo_apply v h _ _ fun c => match c with
    | ⟨0, _⟩ => by show (0 : Nat) = if (1 : Nat) = 1 then 0 else a.val; rw [if_pos rfl]
    | ⟨1, _⟩ => by show (0 : Nat) = if (1 : Nat) = 1 then 0 else 0; rw [if_pos rfl]
    | ⟨2, _⟩ => by show k.val = if (128 : Nat) = 1 then 0 else k.val; rw [if_neg (by decide)]

/-- A column of 128 frequency samples spread along the component axis. -/
theorem bc_freq (v : S1x128x1.Idx → α) (h : S1x128x1.Broadcasts S1x128x128) (b : Fin 128) (k : Fin 128) :
    broadcastTo S1x128x128 v h (ix3 (0 : Fin 1) b k) = v (ix3 (0 : Fin 1) b (0 : Fin 1)) :=
  broadcastTo_apply v h _ _ fun c => match c with
    | ⟨0, _⟩ => by show (0 : Nat) = if (1 : Nat) = 1 then 0 else 0; rw [if_pos rfl]
    | ⟨1, _⟩ => by show b.val = if (128 : Nat) = 1 then 0 else b.val; rw [if_neg (by decide)]
    | ⟨2, _⟩ => by show (0 : Nat) = if (1 : Nat) = 1 then 0 else k.val; rw [if_pos rfl]

/-- A row of 128 component parameters spread along the frequency axis. -/
theorem bc_par_freq (v : S1x1x128.Idx → α) (h : S1x1x128.Broadcasts S1x128x128) (b : Fin 128) (k : Fin 128) :
    broadcastTo S1x128x128 v h (ix3 (0 : Fin 1) b k) = v (ix3 (0 : Fin 1) (0 : Fin 1) k) :=
  broadcastTo_apply v h _ _ fun c => match c with
    | ⟨0, _⟩ => by show (0 : Nat) = if (1 : Nat) = 1 then 0 else 0; rw [if_pos rfl]
    | ⟨1, _⟩ => by show (0 : Nat) = if (1 : Nat) = 1 then 0 else b.val; rw [if_pos rfl]
    | ⟨2, _⟩ => by show k.val = if (128 : Nat) = 1 then 0 else k.val; rw [if_neg (by decide)]

/-- The time × component face spread along the frequency axis. -/
theorem bc_face_time (v : S32x1x128.Idx → α) (h : S32x1x128.Broadcasts S32x128x128) (a : Fin 32) (b k : Fin 128) :
    broadcastTo S32x128x128 v h (ix3 a b k) = v (ix3 a (0 : Fin 1) k) :=
  broadcastTo_apply v h _ _ fun c => match c with
    | ⟨0, _⟩ => by show a.val = if (32 : Nat) = 1 then 0 else a.val; rw [if_neg (by decide)]
    | ⟨1, _⟩ => by show (0 : Nat) = if (1 : Nat) = 1 then 0 else b.val; rw [if_pos rfl]
    | ⟨2, _⟩ => by show k.val = if (128 : Nat) = 1 then 0 else k.val; rw [if_neg (by decide)]

/-- The frequency × component face spread along the time axis. -/
theorem bc_face_freq (v : S1x128x128.Idx → α) (h : S1x128x128.Broadcasts S32x128x128) (a : Fin 32) (b k : Fin 128) :
    broadcastTo S32x128x128 v h (ix3 a b k) = v (ix3 (0 : Fin 1) b k) :=
  broadcastTo_apply v h _ _ fun c => match c with
    | ⟨0, _⟩ => by show (0 : Nat) = if (1 : Nat) = 1 then 0 else a.val; rw [if_pos rfl]
    | ⟨1, _⟩ => by show b.val = if (128 : Nat) = 1 then 0 else b.val; rw [if_neg (by decide)]
    | ⟨2, _⟩ => by show k.val = if (128 : Nat) = 1 then 0 else k.val; rw [if_neg (by decide)]

/-- A row of 128 component parameters spread over the whole box. -/
theorem bc_par_box (v : S1x1x128.Idx → α) (h : S1x1x128.Broadcasts S32x128x128) (a : Fin 32) (b k : Fin 128) :
    broadcastTo S32x128x128 v h (ix3 a b k) = v (ix3 (0 : Fin 1) (0 : Fin 1) k) :=
  broadcastTo_apply v h _ _ fun c => match c with
    | ⟨0, _⟩ => by show (0 : Nat) = if (1 : Nat) = 1 then 0 else a.val; rw [if_pos rfl]
    | ⟨1, _⟩ => by show (0 : Nat) = if (1 : Nat) = 1 then 0 else b.val; rw [if_pos rfl]
    | ⟨2, _⟩ => by show k.val = if (128 : Nat) = 1 then 0 else k.val; rw [if_neg (by decide)]

end Layout

/-! ## The step's pieces at an index, on the extended reals -/

/-- The exponential of a vector, at an index. -/
theorem exp_at {s : Shape} {φ : FTy} (v : FVec Ideal s φ) (i : s.Idx) : exp v i = Ideal.exp (v i) := rfl

/-- The block of standardized time deviations: at time sample `a` and component `k`. -/
theorem dt_at (x0 : FVec Ideal S32x1x1 .f32) (x2 x4 : FVec Ideal S1x1x128 .f32) (a : Fin 32) (k : Fin 128) :
    k0_pay5 (F := Ideal) x0 x2 x4 (ix3 a (0 : Fin 1) k)
      = dev (x0 (ix3 a (0 : Fin 1) (0 : Fin 1))) (x2 (ix3 (0 : Fin 1) (0 : Fin 1) k))
          (x4 (ix3 (0 : Fin 1) (0 : Fin 1) k)) := by
  unfold k0_pay5
  simp only [shapeCast_self]
  show Ideal.div (broadcastTo S32x1x128 x0 _ (ix3 a (0 : Fin 1) k) - broadcastTo S32x1x128 x2 _ (ix3 a (0 : Fin 1) k))
    (broadcastTo S32x1x128 x4 _ (ix3 a (0 : Fin 1) k)) = _
  rw [bc_time, bc_par_time, bc_par_time]
  rfl

/-- The block of standardized frequency deviations: at frequency sample `b` and component `k`. -/
theorem df_at (x1 : FVec Ideal S1x128x1 .f32) (x3 x5 : FVec Ideal S1x1x128 .f32) (b k : Fin 128) :
    k0_pay6 (F := Ideal) x1 x3 x5 (ix3 (0 : Fin 1) b k)
      = dev (x1 (ix3 (0 : Fin 1) b (0 : Fin 1))) (x3 (ix3 (0 : Fin 1) (0 : Fin 1) k))
          (x5 (ix3 (0 : Fin 1) (0 : Fin 1) k)) := by
  unfold k0_pay6
  simp only [shapeCast_self]
  show Ideal.div (broadcastTo S1x128x128 x1 _ (ix3 (0 : Fin 1) b k) - broadcastTo S1x128x128 x3 _ (ix3 (0 : Fin 1) b k))
    (broadcastTo S1x128x128 x5 _ (ix3 (0 : Fin 1) b k)) = _
  rw [bc_freq, bc_par_freq, bc_par_freq]
  rfl

/-- The source index of the lane sum over result index `(a, b)` with last coordinate `k` is `(a, b, k)`. -/
theorem lift_eq (h : S32x128x128.Reduces [2] S32x128) (a : Fin 32) (b k : Fin 128) :
    h.lift (ix2 a b) k = ix3 a b k :=
  funext fun c => Fin.ext (by match c with | ⟨0, _⟩ => rfl | ⟨1, _⟩ => rfl | ⟨2, _⟩ => rfl)

/-- THE STEP AT AN ENTRY: the accumulator's entry plus the 128 components' densities at the entry's samples. -/
theorem step_apply (x0 : FVec Ideal S32x1x1 .f32) (x1 : FVec Ideal S1x128x1 .f32)
    (x2 x3 x4 x5 x6 x7 : FVec Ideal S1x1x128 .f32) (acc : FVec Ideal S32x128 .f32) (a : Fin 32) (b : Fin 128) :
    step (F := Ideal) x0 x1 x2 x3 x4 x5 x6 x7 acc (ix2 a b)
      = acc (ix2 a b) + ∑ k : Fin 128,
          core (x0 (ix3 a (0 : Fin 1) (0 : Fin 1))) (x1 (ix3 (0 : Fin 1) b (0 : Fin 1)))
            (x2 (ix3 (0 : Fin 1) (0 : Fin 1) k)) (x3 (ix3 (0 : Fin 1) (0 : Fin 1) k))
            (x4 (ix3 (0 : Fin 1) (0 : Fin 1) k)) (x5 (ix3 (0 : Fin 1) (0 : Fin 1) k))
            (x6 (ix3 (0 : Fin 1) (0 : Fin 1) k)) (x7 (ix3 (0 : Fin 1) (0 : Fin 1) k)) := by
  unfold step k0_pay1
  simp only [shapeCast_self]
  refine (addf_apply _ _ _).trans (congrArg (acc (ix2 a b) + ·) ?_)
  refine (Ideal.multiReduction_add_single _ _ _ _ _ (ix2 a b)).trans ?_
  refine Finset.sum_congr rfl fun (k : Fin 128) _ => ?_
  rw [lift_eq]
  simp only [mulf_apply, addf_apply, subf_apply, divf_apply, exp_at, broadcast_apply, bc_face_time, bc_face_freq,
    bc_par_box, bc_par_time, k0_pay3, k0_pay4, k0_pay7, shapeCast_self, dt_at, df_at]
  rfl

end Cert.GaussMix.Kern

end
-- ==== Proof.Pieces.lean ====
/-
  What each case of the body leaves behind, as values.

  The body has three control cases along the component-tile axis: the first tile (the accumulator is zeroed, then
  the tile's partial sum is added), a middle tile (the partial sum is added to what the tile before left), and the
  last tile (the same, and the accumulator is then copied to the output block). In every case the accumulator ends
  as one `step` of the point's input blocks over an accumulator value — the zero block in the first case, the
  previous contents otherwise — and in the last case the output block ends equal to the accumulator. Each lemma
  reads the stores the case's run found back as one value: every load and store goes through the whole staging
  buffer, so a load reads the contents and the last covering store leaves its payload.
-/
import proofs.«114677_j31430570672288_1_alg».proof.Proof.KernelTerm
import proofs.«114677_j31430570672288_1_alg».proof.Proof.Gen.KernelIdeal.Frame
import Idealize.ShloMosaic.Lib.Pipeline.Value
import Idealize.ShloMosaic.Lib.Tactic

noncomputable section

namespace Cert.GaussMix.Kern

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block the first tile stores into the accumulator. -/
abbrev zeroBlock : Vec F S32x128 .f32 := k0_pay2

/-- FIRST TILE: the accumulator ends as one step over the zero block. -/
theorem acc_first (c : Dev nD) (i : grid0.Coords) (arg3 : Memref sig .tc .vmem S32x1x1 .f32) (harg3 : arg3.IsWhole) (arg4 : Memref sig .tc .vmem S1x128x1 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i) (x0 : Vec F S32x1x1 .f32) (x1 : Vec F S1x128x1 .f32) (x2 x3 x4 x5 x6 x7 : Vec F S1x1x128 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 x7 = step x0 x1 x2 x3 x4 x5 x6 x7 (zeroBlock (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S32x128) hz2, View.readCov_unit_zero (S := S32x128) _ hz2]
  simp only [View.readAt_eq_ld, harg3.read_unread, harg4.read_unread, harg5.read_unread, harg6.read_unread,
    harg7.read_unread, harg8.read_unread, harg9.read_unread, harg10.read_unread, harg12.read_unread,
    View.ld_unit_zero (S := S32x128) hz2, View.ld_unit_zero (S := S32x1x1) hz3, View.ld_unit_zero (S := S1x128x1) hz3,
    View.ld_unit_zero (S := S1x1x128) hz3]
  rfl

/-- MIDDLE TILE: the accumulator ends as one step over what it held. -/
theorem acc_middle (c : Dev nD) (i : grid0.Coords) (arg3 : Memref sig .tc .vmem S32x1x1 .f32) (harg3 : arg3.IsWhole) (arg4 : Memref sig .tc .vmem S1x128x1 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i) (x0 : Vec F S32x1x1 .f32) (x1 : Vec F S1x128x1 .f32) (x2 x3 x4 x5 x6 x7 : Vec F S1x1x128 .f32) (xs0 : Vec F S32x128 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 x7 xs0 = step x0 x1 x2 x3 x4 x5 x6 x7 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_unit_zero hz2]
  simp only [View.readAt_eq_ld, harg3.read_unread, harg4.read_unread, harg5.read_unread, harg6.read_unread,
    harg7.read_unread, harg8.read_unread, harg9.read_unread, harg10.read_unread, harg12.read_unread,
    View.ld_unit_zero (S := S32x128) hz2, View.ld_unit_zero (S := S32x1x1) hz3, View.ld_unit_zero (S := S1x128x1) hz3,
    View.ld_unit_zero (S := S1x1x128) hz3]
  rfl

/-- LAST TILE: the accumulator ends as one step over what it held; -/
theorem acc_last (c : Dev nD) (i : grid0.Coords) (arg3 : Memref sig .tc .vmem S32x1x1 .f32) (harg3 : arg3.IsWhole) (arg4 : Memref sig .tc .vmem S1x128x1 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i) (x0 : Vec F S32x1x1 .f32) (x1 : Vec F S1x128x1 .f32) (x2 x3 x4 x5 x6 x7 : Vec F S1x1x128 .f32) (xs0 : Vec F S32x128 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 x7 xs0 = step x0 x1 x2 x3 x4 x5 x6 x7 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero hz2]
  simp only [View.readAt_eq_ld, harg3.read_unread, harg4.read_unread, harg5.read_unread, harg6.read_unread,
    harg7.read_unread, harg8.read_unread, harg9.read_unread, harg10.read_unread, harg12.read_unread,
    View.ld_unit_zero (S := S32x128) hz2, View.ld_unit_zero (S := S32x1x1) hz3, View.ld_unit_zero (S := S1x128x1) hz3,
    View.ld_unit_zero (S := S1x1x128) hz3]
  rfl

/-- and the output block ends equal to it: the body loads the accumulator back and stores it. -/
theorem out_last (c : Dev nD) (i : grid0.Coords) (arg3 : Memref sig .tc .vmem S32x1x1 .f32) (harg3 : arg3.IsWhole) (arg4 : Memref sig .tc .vmem S1x128x1 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i) (x0 : Vec F S32x1x1 .f32) (x1 : Vec F S1x128x1 .f32) (x2 x3 x4 x5 x6 x7 : Vec F S1x1x128 .f32) (xs0 : Vec F S32x128 .f32) :
    out0_C_8 c i arg3 harg3 arg4 harg4 arg5 harg5 arg6 harg6 arg7 harg7 arg8 harg8 arg9 harg9 arg10 harg10 arg11 harg11 arg12 harg12 hc0 hc1 x0 x1 x2 x3 x4 x5 x6 x7 xs0 = step x0 x1 x2 x3 x4 x5 x6 x7 xs0 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero hz2, View.readCov_unit_zero (S := S32x128) _ hz2]
  simp only [View.readAt_eq_ld, harg3.read_unread, harg4.read_unread, harg5.read_unread, harg6.read_unread,
    harg7.read_unread, harg8.read_unread, harg9.read_unread, harg10.read_unread, harg12.read_unread,
    View.ld_unit_zero (S := S32x128) hz2, View.ld_unit_zero (S := S32x1x1) hz3, View.ld_unit_zero (S := S1x128x1) hz3,
    View.ld_unit_zero (S := S1x1x128) hz3]
  rfl

end Cert.GaussMix.Kern

end
-- ==== Proof.Blocks.lean ====
/-
  The input blocks of a grid point, as elements of the argument arrays.

  Before the kernel is launched the host reshapes the two sample grids and the component parameters to rank three
  (time along the first axis, frequency along the second, components along the third), after taking the
  exponential of the two logarithmic scales and the hyperbolic tangent of the raw correlation. At grid position
  `t` the kernel's windows then hold: the 32 time samples of time tile `t / 32`, the 128 frequency samples of
  frequency tile `t / 16 mod 2`, and the parameters of the 128 components of component tile `t mod 16`. Each
  lemma below reads one element of one block as the element of the corresponding argument array it is.
-/
import proofs.«114677_j31430570672288_1_alg».proof.Proof.GaussSum
import proofs.«114677_j31430570672288_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.GaussMix.Kern

open Cert.KernelIdeal Cert.KernelIdeal.Gen Idealize.ShloMosaic Idealize.ShloMosaic.TcCoe Idealize.SL.Sem
open Idealize.ShloMosaic.ValueIdx Idealize.ShloMosaic.StableHlo

/-! ## A vector reshaped to rank three with two unit axes, read at an index

The reshape keeps row-major positions; with two unit axes the position is the coordinate on the long axis. -/

section Reshape
variable {α : Type}

/-- 512 values laid along the first axis. -/
theorem cast_col (x : S512.Idx → α) (h : S512.ShapeCasts S512x1x1) (j : S512x1x1.Idx) (i : S512.Idx)
    (hij : (i 0).val = (j 0).val) : shapeCast S512x1x1 x h j = x i :=
  shapeCast_apply x h j i (by
    rw [Shape.rowMajor_val_one, Shape.rowMajor_val_three]
    have h1 : (j 1).val < 1 := (j 1).isLt
    have h2 : (j 2).val < 1 := (j 2).isLt
    show (i 0).val = ((j 0).val * 1 + (j 1).val) * 1 + (j 2).val
    omega)

/-- 256 values laid along the second axis. -/
theorem cast_mid (x : S256.Idx → α) (h : S256.ShapeCasts S1x256x1) (j : S1x256x1.Idx) (i : S256.Idx)
    (hij : (i 0).val = (j 1).val) : shapeCast S1x256x1 x h j = x i :=
  shapeCast_apply x h j i (by
    rw [Shape.rowMajor_val_one, Shape.rowMajor_val_three]
    have h0 : (j 0).val < 1 := (j 0).isLt
    have h2 : (j 2).val < 1 := (j 2).isLt
    show (i 0).val = ((j 0).val * 256 + (j 1).val) * 1 + (j 2).val
    omega)

/-- 2048 values laid along the third axis. -/
theorem cast_row (x : S2048.Idx → α) (h : S2048.ShapeCasts S1x1x2048) (j : S1x1x2048.Idx) (i : S2048.Idx)
    (hij : (i 0).val = (j 2).val) : shapeCast S1x1x2048 x h j = x i :=
  shapeCast_apply x h j i (by
    rw [Shape.rowMajor_val_one, Shape.rowMajor_val_three]
    have h0 : (j 0).val < 1 := (j 0).isLt
    have h1 : (j 1).val < 1 := (j 1).isLt
    show (i 0).val = ((j 0).val * 1 + (j 1).val) * 2048 + (j 2).val
    omega)

end Reshape

/-! ## Where the windows' blocks sit, decided over the grid -/

/-- The time window's block index is the time tile; the frequency window's the frequency tile. -/
theorem idx_samples : ∀ t : Fin cfg0.N,
    win0_0.index t (0 : Fin 3) = t.val / 32 ∧ win0_1.index t (1 : Fin 3) = t.val / 16 % 2 :=
  (by decide +kernel : ∀ t : Fin grid0.N, _)

/-- The six parameter windows' block index along the component axis is the component tile. -/
theorem idx_par : ∀ t : Fin cfg0.N,
    win0_2.index t (2 : Fin 3) = t.val % 16 ∧ win0_3.index t (2 : Fin 3) = t.val % 16
    ∧ win0_4.index t (2 : Fin 3) = t.val % 16 ∧ win0_5.index t (2 : Fin 3) = t.val % 16
    ∧ win0_6.index t (2 : Fin 3) = t.val % 16 ∧ win0_7.index t (2 : Fin 3) = t.val % 16 :=
  (by decide +kernel : ∀ t : Fin grid0.N, _)

/-- The output window's block index is (time tile, frequency tile). -/
theorem idx_out : ∀ t : Fin cfg0.N,
    win0_8.index t (0 : Fin 2) = t.val / 32 ∧ win0_8.index t (1 : Fin 2) = t.val / 16 % 2 :=
  (by decide +kernel : ∀ t : Fin grid0.N, _)

/-! ## The windows' arrays as the kernel finds them, and the blocks' elements -/

variable (m : (ℓ : Loc nD τ sig) → Buf (Elt Ideal) ℓ) (c : Dev nD)

theorem V_v0 : (V m c main_v0 : S512x1x1.Idx → EReal)
    = shapeCast S512x1x1 (m ((c : Thread nD τ).loc main_arg0)) shapeCasts_S512_S512x1x1 := by
  dsimp only [V, hostOps0]
  after_results
  rfl

theorem V_v1 : (V m c main_v1 : S1x256x1.Idx → EReal)
    = shapeCast S1x256x1 (m ((c : Thread nD τ).loc main_arg1)) shapeCasts_S256_S1x256x1 := by
  dsimp only [V, hostOps0]
  after_results
  rfl

theorem V_v2 : (V m c main_v2 : S1x1x2048.Idx → EReal)
    = shapeCast S1x1x2048 (m ((c : Thread nD τ).loc main_arg2)) shapeCasts_S2048_S1x1x2048 := by
  dsimp only [V, hostOps0]
  after_results
  rfl

theorem V_v3 : (V m c main_v3 : S1x1x2048.Idx → EReal)
    = shapeCast S1x1x2048 (m ((c : Thread nD τ).loc main_arg3)) shapeCasts_S2048_S1x1x2048 := by
  dsimp only [V, hostOps0]
  after_results
  rfl

theorem V_v5 : (V m c main_v5 : S1x1x2048.Idx → EReal)
    = shapeCast S1x1x2048 (Host.exp (F := Ideal) (s := S2048) (φ := .f32) (m ((c : Thread nD τ).loc main_arg4))) shapeCasts_S2048_S1x1x2048 := by
  dsimp only [V, hostOps0]
  after_results
  rfl

theorem V_v7 : (V m c main_v7 : S1x1x2048.Idx → EReal)
    = shapeCast S1x1x2048 (Host.exp (F := Ideal) (s := S2048) (φ := .f32) (m ((c : Thread nD τ).loc main_arg5))) shapeCasts_S2048_S1x1x2048 := by
  dsimp only [V, hostOps0]
  after_results
  rfl

theorem V_v9 : (V m c main_v9 : S1x1x2048.Idx → EReal)
    = shapeCast S1x1x2048 (Host.tanh (F := Ideal) (s := S2048) (φ := .f32) (m ((c : Thread nD τ).loc main_arg6))) shapeCasts_S2048_S1x1x2048 := by
  dsimp only [V, hostOps0]
  after_results
  rfl

theorem V_v10 : (V m c main_v10 : S1x1x2048.Idx → EReal)
    = shapeCast S1x1x2048 (m ((c : Thread nD τ).loc main_arg7)) shapeCasts_S2048_S1x1x2048 := by
  dsimp only [V, hostOps0]
  after_results
  rfl

/-- Time sample `a` of the block at position `t`. -/
theorem blk_time (t : Fin cfg0.N) (a : Fin 32) :
    (iblk m c 0 t : Vec Ideal S32x1x1 .f32) (ix3 a (0 : Fin 1) (0 : Fin 1))
      = m ((c : Thread nD τ).loc main_arg0) (ix1 (tIdx t.val a)) := by
  have hN : t.val < 512 := lt_of_lt_of_eq t.isLt (show cfg0.N = 512 from N_0)
  unfold iblk
  rw [View.read_apply]
  show V m c main_v0 _ = _
  rw [V_v0]
  refine cast_col _ _ _ (ix1 (tIdx t.val a)) ?_
  show 32 * (t.val / 32 % 16) + a.val = win0_0.index t (0 : Fin 3) * 32 + 1 * a.val
  rw [(idx_samples t).1]
  omega

/-- Frequency sample `b` of the block at position `t`. -/
theorem blk_freq (t : Fin cfg0.N) (b : Fin 128) :
    (iblk m c 1 t : Vec Ideal S1x128x1 .f32) (ix3 (0 : Fin 1) b (0 : Fin 1))
      = m ((c : Thread nD τ).loc main_arg1) (ix1 (fIdx t.val b)) := by
  unfold iblk
  rw [View.read_apply]
  show V m c main_v1 _ = _
  rw [V_v1]
  refine cast_mid _ _ _ (ix1 (fIdx t.val b)) ?_
  show 128 * (t.val / 16 % 2) + b.val = win0_1.index t (1 : Fin 3) * 128 + 1 * b.val
  rw [(idx_samples t).2]
  omega

/-- The time mean of component `k` of the block at position `t`. -/
theorem blk_mu_t (t : Fin cfg0.N) (k : Fin 128) :
    (iblk m c 2 t : Vec Ideal S1x1x128 .f32) (ix3 (0 : Fin 1) (0 : Fin 1) k)
      = m ((c : Thread nD τ).loc main_arg2) (ix1 (cIdx t.val k)) := by
  obtain ⟨p2, p3, p4, p5, p6, p7⟩ := idx_par t
  unfold iblk
  rw [View.read_apply]
  show V m c main_v2 _ = _
  rw [V_v2]
  refine cast_row _ _ _ (ix1 (cIdx t.val k)) ?_
  show 128 * (t.val % 16) + k.val = win0_2.index t (2 : Fin 3) * 128 + 1 * k.val
  rw [p2]
  omega

/-- The frequency mean of component `k` of the block at position `t`. -/
theorem blk_mu_f (t : Fin cfg0.N) (k : Fin 128) :
    (iblk m c 3 t : Vec Ideal S1x1x128 .f32) (ix3 (0 : Fin 1) (0 : Fin 1) k)
      = m ((c : Thread nD τ).loc main_arg3) (ix1 (cIdx t.val k)) := by
  obtain ⟨p2, p3, p4, p5, p6, p7⟩ := idx_par t
  unfold iblk
  rw [View.read_apply]
  show V m c main_v3 _ = _
  rw [V_v3]
  refine cast_row _ _ _ (ix1 (cIdx t.val k)) ?_
  show 128 * (t.val % 16) + k.val = win0_3.index t (2 : Fin 3) * 128 + 1 * k.val
  rw [p3]
  omega

/-- The time scale of component `k` of the block at position `t`: the exponential of its logarithm. -/
theorem blk_sigma_t (t : Fin cfg0.N) (k : Fin 128) :
    (iblk m c 4 t : Vec Ideal S1x1x128 .f32) (ix3 (0 : Fin 1) (0 : Fin 1) k)
      = Ideal.exp (m ((c : Thread nD τ).loc main_arg4) (ix1 (cIdx t.val k))) := by
  obtain ⟨p2, p3, p4, p5, p6, p7⟩ := idx_par t
  unfold iblk
  rw [View.read_apply]
  show V m c main_v5 _ = _
  rw [V_v5]
  refine cast_row _ _ _ (ix1 (cIdx t.val k)) ?_
  show 128 * (t.val % 16) + k.val = win0_4.index t (2 : Fin 3) * 128 + 1 * k.val
  rw [p4]
  omega

/-- The frequency scale of component `k` of the block at position `t`: the exponential of its logarithm. -/
theorem blk_sigma_f (t : Fin cfg0.N) (k : Fin 128) :
    (iblk m c 5 t : Vec Ideal S1x1x128 .f32) (ix3 (0 : Fin 1) (0 : Fin 1) k)
      = Ideal.exp (m ((c : Thread nD τ).loc main_arg5) (ix1 (cIdx t.val k))) := by
  obtain ⟨p2, p3, p4, p5, p6, p7⟩ := idx_par t
  unfold iblk
  rw [View.read_apply]
  show V m c main_v7 _ = _
  rw [V_v7]
  refine cast_row _ _ _ (ix1 (cIdx t.val k)) ?_
  show 128 * (t.val % 16) + k.val = win0_5.index t (2 : Fin 3) * 128 + 1 * k.val
  rw [p5]
  omega

/-- The correlation of component `k` of the block at position `t`: the hyperbolic tangent of the raw value. -/
theorem blk_rho (t : Fin cfg0.N) (k : Fin 128) :
    (iblk m c 6 t : Vec Ideal S1x1x128 .f32) (ix3 (0 : Fin 1) (0 : Fin 1) k)
      = Ideal.tanh (m ((c : Thread nD τ).loc main_arg6) (ix1 (cIdx t.val k))) := by
  obtain ⟨p2, p3, p4, p5, p6, p7⟩ := idx_par t
  unfold iblk
  rw [View.read_apply]
  show V m c main_v9 _ = _
  rw [V_v9]
  refine cast_row _ _ _ (ix1 (cIdx t.val k)) ?_
  show 128 * (t.val % 16) + k.val = win0_6.index t (2 : Fin 3) * 128 + 1 * k.val
  rw [p6]
  omega

/-- The weight of component `k` of the block at position `t`. -/
theorem blk_alpha (t : Fin cfg0.N) (k : Fin 128) :
    (iblk m c 7 t : Vec Ideal S1x1x128 .f32) (ix3 (0 : Fin 1) (0 : Fin 1) k)
      = m ((c : Thread nD τ).loc main_arg7) (ix1 (cIdx t.val k)) := by
  obtain ⟨p2, p3, p4, p5, p6, p7⟩ := idx_par t
  unfold iblk
  rw [View.read_apply]
  show V m c main_v10 _ = _
  rw [V_v10]
  refine cast_row _ _ _ (ix1 (cIdx t.val k)) ?_
  show 128 * (t.val % 16) + k.val = win0_7.index t (2 : Fin 3) * 128 + 1 * k.val
  rw [p7]
  omega

end Cert.GaussMix.Kern

end
-- ==== Proof.Fold.lean ====
/-
  The kernel's result array is the mixture.

  Along the component-tile axis the accumulator is reset at the first tile and then grows by one `step` per tile; a
  step adds, at every entry of the 32 × 128 block, the sum of the tile's 128 component terms at the block's time
  and frequency samples (`addend`). After the sixteenth tile of a run the accumulator therefore holds, at every
  entry, the zero it started from plus the sixteen tiles' partial sums, and that is what the point writes back to
  its 32 × 128 block of the result. Regrouping the sixteen partial sums into the one sum over the 2048 components
  gives the mixture at the block's samples; the 16 × 2 blocks written back tile the 512 × 256 result.
-/
import proofs.«114677_j31430570672288_1_alg».proof.Proof.Pieces
import proofs.«114677_j31430570672288_1_alg».proof.Proof.Blocks
import proofs.«114677_j31430570672288_1_alg».proof.Proof.Gen.KernelIdeal.Value
import Idealize.ShloMosaic.Lib.Pipeline.Value

noncomputable section

namespace Cert.GaussMix.Kern

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (c : Dev nD)

/-- Component `n`'s term at time sample `I` and frequency sample `J` of the argument arrays. -/
abbrev comp (I : Fin 512) (J : Fin 256) (n : Fin 2048) : EReal :=
  term (m ((c : Thread nD τ).loc main_arg0) (ix1 I)) (m ((c : Thread nD τ).loc main_arg1) (ix1 J))
    (m ((c : Thread nD τ).loc main_arg2) (ix1 n)) (m ((c : Thread nD τ).loc main_arg3) (ix1 n))
    (m ((c : Thread nD τ).loc main_arg4) (ix1 n)) (m ((c : Thread nD τ).loc main_arg5) (ix1 n))
    (m ((c : Thread nD τ).loc main_arg6) (ix1 n)) (m ((c : Thread nD τ).loc main_arg7) (ix1 n))

/-- What grid position `n` adds to the accumulator at block entry `y`: the partial sum of its component tile at
    the entry's samples. -/
def addend (n : ℕ) (y : S32x128.Idx) : EReal :=
  ∑ k : Fin 128, comp m c (tIdx n (y 0 : Fin 32)) (fIdx n (y 1 : Fin 128)) (cIdx n k)

/-- The zero block's entries are the zero word. -/
theorem zero_at (y : S32x128.Idx) : zeroBlock (F := Ideal) y = Ideal.ofBits .f32 0x00000000#32 := by
  show k0_pay2 (F := Ideal) y = _
  unfold k0_pay2
  simp only [shapeCast_self]
  rfl

/-- ONE STEP AT A POSITION: over the position's blocks, the accumulator's entry grows by the position's addend. -/
theorem step_at (t : Fin cfg0.N) (acc : Vec Ideal S32x128 .f32) (y : S32x128.Idx) :
    step (F := Ideal) (iblk m c 0 t) (iblk m c 1 t) (iblk m c 2 t) (iblk m c 3 t) (iblk m c 4 t) (iblk m c 5 t) (iblk m c 6 t) (iblk m c 7 t) acc y = acc y + addend m c t.val y := by
  obtain ⟨a, b, rfl⟩ : ∃ (a : Fin 32) (b : Fin 128), y = ix2 a b := ⟨y 0, y 1, eq_ix2 y⟩
  refine (step_apply (iblk m c 0 t) (iblk m c 1 t) (iblk m c 2 t) (iblk m c 3 t) (iblk m c 4 t) (iblk m c 5 t) (iblk m c 6 t) (iblk m c 7 t) acc a b).trans ?_
  show _ = acc (ix2 a b) + ∑ k : Fin 128, comp m c (tIdx t.val a) (fIdx t.val b) (cIdx t.val k)
  refine congrArg (acc (ix2 a b) + ·) (Finset.sum_congr rfl fun k _ => ?_)
  rw [blk_time, blk_freq, blk_mu_t, blk_mu_f, blk_sigma_t, blk_sigma_f, blk_rho, blk_alpha]
  rfl

/-- At the first tile of a run the accumulator is reset: zero plus the position's addend. -/
theorem reset_at (n : ℕ) (h : n < cfg0.N) (h0 : n % 16 = 0) (y : S32x128.Idx) :
    Value.scAt0_0 m c n h (VS0_0.read (Elt Ideal) VS0_0.junk) y
      = Ideal.ofBits .f32 0x00000000#32 + addend m c n y := by
  unfold Value.scAt0_0
  rw [dif_pos h0, dif_neg (by omega : ¬n % 16 = 15), acc_first]
  exact (step_at m c ⟨n, h⟩ zeroBlock y).trans (congrArg (· + addend m c n y) (zero_at y))

/-- At every later tile it grows by the position's addend. -/
theorem carry_at (n : ℕ) (h : n < cfg0.N) (h0 : ¬n % 16 = 0) (acc : Vec Ideal S32x128 .f32) (y : S32x128.Idx) :
    Value.scAt0_0 m c n h acc y = acc y + addend m c n y := by
  unfold Value.scAt0_0
  rw [dif_neg h0]
  by_cases h1 : n % 16 = 15
  · rw [dif_pos h1, acc_last]
    exact step_at m c ⟨n, h⟩ acc y
  · rw [dif_neg h1, acc_middle]
    exact step_at m c ⟨n, h⟩ acc y

/-- THE ACCUMULATOR AFTER POSITION `t`: zero plus the addends of the run's positions up to `t`. -/
theorem acc_after (t : Fin cfg0.N) (y : S32x128.Idx) :
    (outsAt0 m c t.val t.isLt).2 y
      = Ideal.ofBits .f32 0x00000000#32
        + ∑ s ∈ Finset.range (t.val % 16 + 1), addend m c (16 * (t.val / 16) + s) y := by
  rw [Value.soutsAt0_0_eq m c t]
  exact Pipeline.accAt_add_apply (β := EReal) _ _ (fun _ => Ideal.ofBits .f32 0x00000000#32) (addend m c)
    (16 * (t.val / 16)) 15
    (fun h y => reset_at m c _ h (by omega) y)
    (fun n h acc y hlo hhi => carry_at m c n h (by omega) acc y)
    (t.val % 16) (by omega) _ y

/-- The result: the mixture of the eight argument arrays. -/
abbrev result : Buf (Elt Ideal) ((c : Thread nD τ).loc main_v11) :=
  mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Sixteen positions of one run share their time and frequency tiles, so their addends at an entry are the
    sixteen component tiles' partial sums of ONE pair of samples; together they are the sum over all components. -/
theorem run_sum (t : Fin cfg0.N) (h15 : t.val % 16 = 15) (a : Fin 32) (b : Fin 128) :
    ∑ s ∈ Finset.range 16, addend m c (16 * (t.val / 16) + s) (ix2 a b)
      = ∑ n : Fin 2048, comp m c (tIdx t.val a) (fIdx t.val b) n := by
  rw [← sum_tiles (fun n => comp m c (tIdx t.val a) (fIdx t.val b) n) (t.val / 16)]
  refine Finset.sum_congr rfl fun s hs => ?_
  have hs' : s < 16 := Finset.mem_range.mp hs
  show ∑ k : Fin 128, comp m c (tIdx (16 * (t.val / 16) + s) a) (fIdx (16 * (t.val / 16) + s) b)
      (cIdx (16 * (t.val / 16) + s) k) = _
  rw [show tIdx (16 * (t.val / 16) + s) a = tIdx t.val a from Fin.ext (by
        show 32 * ((16 * (t.val / 16) + s) / 32 % 16) + a.val = 32 * (t.val / 32 % 16) + a.val; omega),
    show fIdx (16 * (t.val / 16) + s) b = fIdx t.val b from Fin.ext (by
        show 128 * ((16 * (t.val / 16) + s) / 16 % 2) + b.val = 128 * (t.val / 16 % 2) + b.val; omega)]

/-- WHAT A WRITING POSITION WRITES BACK is its block of the mixture. -/
theorem flushed_eq (t : Fin cfg0.N) (hf : (cfg0.win 8).flush t = true) :
    (dats m 0 c).flushed 8 t = ((cfg0.win 8).blk t).view.read (Elt Ideal) (result m c) := by
  have h15 : t.val % 16 = 15 := (flush0_8 t).mp hf
  have h0 : ¬t.val % 16 = 0 := by omega
  have hN : t.val < 512 := lt_of_lt_of_eq t.isLt (show cfg0.N = 512 from N_0)
  have e12 : (outsAt0 m c t.val t.isLt).1 = (outsAt0 m c t.val t.isLt).2 := by
    rw [outsAt0_C m c t h0 h15]
    dsimp only
    rw [out_last, acc_last]
  rw [Value.flushed8 m c t]
  funext y
  obtain ⟨a, b, rfl⟩ : ∃ (a : Fin 32) (b : Fin 128), y = ix2 a b := ⟨y 0, y 1, eq_ix2 y⟩
  show (outsAt0 m c t.val t.isLt).1 (ix2 a b) = result m c (((cfg0.win 8).blk t).view.emb (ix2 a b))
  rw [e12, acc_after m c t (ix2 a b), show t.val % 16 + 1 = 16 from by omega, run_sum m c t h15 a b]
  refine (mix_apply _ _ _ _ _ _ _ _ _ (tIdx t.val a) (fIdx t.val b) ?_ ?_).symm
  · show win0_8.index t (0 : Fin 2) * 32 + 1 * a.val = 32 * (t.val / 32 % 16) + a.val
    rw [(idx_out t).1]; omega
  · show win0_8.index t (1 : Fin 2) * 128 + 1 * b.val = 128 * (t.val / 16 % 2) + b.val
    rw [(idx_out t).2]; omega

/-- An index of the result is in position `t`'s block iff each coordinate is in the block's range on its axis. -/
theorem mem_blk (t : Fin cfg0.N) (i : S512x256.Idx) :
    i ∈ ((cfg0.win 8).blk t).view.set ↔ ∀ a : Fin 2, win0_8.index t a * S32x128.size a ≤ (i a).val
      ∧ (i a).val < win0_8.index t a * S32x128.size a + S32x128.size a := by
  show i ∈ ((View.whole main_v11).slice (win0_8.rect t)).set ↔ _
  rw [View.set_slice_whole, Rect.mem_set_unit]
  exact Iff.rfl

/-- Every index of the result lies in the block of a writing position: the last position of the run of its
    time and frequency tiles. -/
theorem cover (i : S512x256.Idx) :
    ∃ t : Fin cfg0.N, (cfg0.win 8).flush t = true ∧ i ∈ ((cfg0.win 8).blk t).view.set := by
  have hi0 : (i 0).val < 512 := (i 0).isLt
  have hi1 : (i 1).val < 256 := (i 1).isLt
  have hN : cfg0.N = 512 := N_0
  have hb : 16 * (2 * ((i 0).val / 32) + (i 1).val / 128) + 15 < cfg0.N := by rw [hN]; omega
  refine ⟨⟨16 * (2 * ((i 0).val / 32) + (i 1).val / 128) + 15, hb⟩, (flush0_8 _).mpr (by
    show (16 * (2 * ((i 0).val / 32) + (i 1).val / 128) + 15) % 16 = 15; omega), ?_⟩
  rw [mem_blk]
  obtain ⟨e0, e1⟩ := idx_out ⟨16 * (2 * ((i 0).val / 32) + (i 1).val / 128) + 15, hb⟩
  intro a
  match a with
  | ⟨0, _⟩ =>
    show win0_8.index ⟨16 * (2 * ((i 0).val / 32) + (i 1).val / 128) + 15, hb⟩ (0 : Fin 2) * 32 ≤ (i 0).val
      ∧ (i 0).val < win0_8.index ⟨16 * (2 * ((i 0).val / 32) + (i 1).val / 128) + 15, hb⟩ (0 : Fin 2) * 32 + 32
    rw [e0]
    show (16 * (2 * ((i 0).val / 32) + (i 1).val / 128) + 15) / 32 * 32 ≤ (i 0).val
      ∧ (i 0).val < (16 * (2 * ((i 0).val / 32) + (i 1).val / 128) + 15) / 32 * 32 + 32
    omega
  | ⟨1, _⟩ =>
    show win0_8.index ⟨16 * (2 * ((i 0).val / 32) + (i 1).val / 128) + 15, hb⟩ (1 : Fin 2) * 128 ≤ (i 1).val
      ∧ (i 1).val < win0_8.index ⟨16 * (2 * ((i 0).val / 32) + (i 1).val / 128) + 15, hb⟩ (1 : Fin 2) * 128 + 128
    rw [e1]
    show (16 * (2 * ((i 0).val / 32) + (i 1).val / 128) + 15) / 16 % 2 * 128 ≤ (i 1).val
      ∧ (i 1).val < (16 * (2 * ((i 0).val / 32) + (i 1).val / 128) + 15) / 16 % 2 * 128 + 128
    omega

/-- So the result array ends holding the mixture. -/
theorem final : (dats m 0 c).arrAt 8 cfg0.N = result m c :=
  (dats m 0 c).arrAt_eq_of_cover 8 (result m c) (fun t hf => flushed_eq m c t hf) (cover)

/-- The kernel's run: the result array at the mixture of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.GaussMix.Kern

end
-- ==== Proof.lean ====
/-
  The kernel and its reference compute the same Gaussian mixture.

  Both evaluate, for each of 512 time samples `t` and 256 frequency samples `f`,
      out(t, f) = 0 + ∑ₙ αₙ · exp(-½ · (dt² - 2ρₙ·dt·df + df²) / (1 - ρₙ² + ε)),
      dt = (t - μtₙ) / exp(log σtₙ),   df = (f - μfₙ) / exp(log σfₙ),   ρₙ = tanh(raw ρₙ),
  over 2048 components `n`. The reference forms the whole 512 × 256 × 2048 box and sums its last axis. The kernel
  walks 16 × 2 output blocks of 32 × 128 entries; for each it runs through 16 tiles of 128 components, adding each
  tile's partial sum into an accumulator that starts at zero, and writes the accumulator to the block after the
  last tile. Term by term the two programs apply the same operations to the same elements of the arguments, with
  the same literals; they differ only in how the 2048 terms of an entry are grouped. Addition of extended reals is
  commutative and associative with no side condition, so the results agree on every input: the precondition that
  the inputs be finite is never used.

  The modules: `GaussSum` (the term, the mixture, the regrouping of the sum), `RefTerm` (the reference's result is
  the mixture), `KernelTerm` (one accumulation step read at an entry), `Pieces` (what each of the body's three
  cases leaves in the accumulator and the output block), `Blocks` (a block's elements as elements of the
  arguments), `Fold` (the accumulation over the grid, the write-back and the cover: the kernel's result is the
  mixture). Here the five claims are assembled.
-/
import proofs.«114677_j31430570672288_1_alg».proof.Defs
import proofs.«114677_j31430570672288_1_alg».proof.Proof.Gen.Kernel
import proofs.«114677_j31430570672288_1_alg».proof.Proof.Gen.Kernel.Skeleton
import proofs.«114677_j31430570672288_1_alg».proof.Proof.Gen.Kernel.Launch
import proofs.«114677_j31430570672288_1_alg».proof.Proof.Gen.Kernel.Points
import proofs.«114677_j31430570672288_1_alg».proof.Proof.Gen.Kernel.Frame
import proofs.«114677_j31430570672288_1_alg».proof.Proof.Gen.KernelIdeal
import proofs.«114677_j31430570672288_1_alg».proof.Proof.Gen.KernelIdeal.Skeleton
import proofs.«114677_j31430570672288_1_alg».proof.Proof.Gen.KernelIdeal.Launch
import proofs.«114677_j31430570672288_1_alg».proof.Proof.Gen.KernelIdeal.Points
import proofs.«114677_j31430570672288_1_alg».proof.Proof.Gen.KernelIdeal.Frame
import proofs.«114677_j31430570672288_1_alg».proof.Proof.Gen.ReferenceIdeal
import proofs.«114677_j31430570672288_1_alg».proof.Proof.Gen.Pre_finite_inputs
import proofs.«114677_j31430570672288_1_alg».proof.Proof.Gen.KernelIdeal.Value
import proofs.«114677_j31430570672288_1_alg».proof.Proof.Gen.ReferenceIdeal.Run
import proofs.«114677_j31430570672288_1_alg».proof.Proof.Gen.ReferenceIdeal.Read
import proofs.«114677_j31430570672288_1_alg».proof.Proof.RefTerm
import proofs.«114677_j31430570672288_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel :=
  fun m ρ _ => Cert.Kernel.Gen.frame m ρ

/-- So does the kernel read on the extended reals. -/
theorem frame_kernel_ideal : Cert.frame_KernelIdeal :=
  fun m ρ _ => Cert.KernelIdeal.Gen.frame m ρ

/-- The reference is a straight line of host operations: it runs, and no operation writes an argument. -/
theorem frame_reference : Cert.frame_ReferenceIdeal :=
  fun m ρ _ => (θ_run Cert.ReferenceIdeal.defs _ _).mono (fun _ h c => (h c).2)
    (Cert.ReferenceIdeal.Value.run (F := Ideal) m ρ)

/-- The idealization rewrote no operation of the kernel. -/
theorem preserves : Cert.preserves_Kernel_KernelIdeal := trivial

/-- On the extended reals the kernel's result array ends at the mixture of its arguments, and the reference's
    result at the mixture of arguments that agree with them: the same array. -/
theorem algebraic : Cert.algebraic_KernelIdeal_ReferenceIdeal := by
  intro m ρ m' ρ' _ hagree
  refine ⟨fun c => Cert.GaussMix.Kern.result m c, Cert.GaussMix.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.GaussMix.Ref.result_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
